-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S8x6 : Shape := ⟨2, ![8, 6]⟩
abbrev S8x4 : Shape := ⟨2, ![8, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S8x6 : S_.BroadcastsInDim S8x6 (![] : Fin 0 → Fin S8x6.rank)
  reducesTo_S8x6_S_d0_1 : S8x6.ReducesTo [0, 1] S_
  bcast_S_S8x4 : S_.BroadcastsInDim S8x4 (![] : Fin 0 → Fin S8x4.rank)
  reducesTo_S8x4_S_d0_1 : S8x4.ReducesTo [0, 1] S_

variable [Facts]

def fn {F : FTy → Type} [FloatOps F] (main_arg0 : FVec F S4x4096x2048 .f32) (main_arg1 : FVec F S8x6 .f32) (main_arg2 : FVec F S8x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S8x6 .f32 := Host.absf main_arg1
  let main_cst_0 : FVec F S_ .f32 := constant S_ .f32 0x7F800000#32
  let main_v5 : FVec F S8x6 .f32 := broadcastInDim S8x6 ![] bcast_S_S8x6 main_cst_0
  let main_v6 : IVec S8x6 1 := cmpf .olt main_v4 main_v5
  let main_c_1 : IVec S_ 1 := constantI S_ 1 1#1
  let main_v7 : IVec S_ 1 := (fun x v => Host.reduce IntOp.andi x v reducesTo_S8x6_S_d0_1 h_S_) main_v6 main_c_1
  let main_v8 : IVec S_ 1 := andi main_v3 main_v7
  let main_v9 : FVec F S8x4 .f32 := Host.absf main_arg2
  let main_cst_2 : FVec F S_ .f32 := constant S_ .f32 0x7F800000#32
  let main_v10 : FVec F S8x4 .f32 := broadcastInDim S8x4 ![] bcast_S_S8x4 main_cst_2
  let main_v11 : IVec S8x4 1 := cmpf .olt main_v9 main_v10
  let main_c_3 : IVec S_ 1 := constantI S_ 1 1#1
  let main_v12 : IVec S_ 1 := (fun x v => Host.reduce IntOp.andi x v reducesTo_S8x4_S_d0_1 h_S_) main_v11 main_c_3
  let main_v13 : IVec S_ 1 := andi main_v8 main_v12
  main_v13
-- ==== Kernel.lean ====
abbrev S4x4096x2048 : Shape := ⟨3, ![4, 4096, 2048]⟩
abbrev S8x6 : Shape := ⟨2, ![8, 6]⟩
abbrev S8x4 : Shape := ⟨2, ![8, 4]⟩
abbrev S8x256x6 : Shape := ⟨3, ![8, 256, 6]⟩
abbrev S2048x6 : Shape := ⟨2, ![2048, 6]⟩
abbrev S8x256x4 : Shape := ⟨3, ![8, 256, 4]⟩
abbrev S2048x4 : Shape := ⟨2, ![2048, 4]⟩
abbrev S16384x2048 : Shape := ⟨2, ![16384, 2048]⟩
abbrev S1024x2048 : Shape := ⟨2, ![1024, 2048]⟩
abbrev S2048x1 : Shape := ⟨2, ![2048, 1]⟩
abbrev S2048 : Shape := ⟨1, ![2048]⟩
abbrev S1x2048 : Shape := ⟨2, ![1, 2048]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S8x6, .f32⟩
  | .hbm, ⟨2, _⟩ => ⟨S8x4, .f32⟩
  | .hbm, ⟨3, _⟩ => ⟨S8x256x6, .f32⟩
  | .hbm, ⟨4, _⟩ => ⟨S2048x6, .f32⟩
  | .hbm, ⟨5, _⟩ => ⟨S8x256x4, .f32⟩
  | .hbm, ⟨6, _⟩ => ⟨S2048x4, .f32⟩
  | .hbm, ⟨7, _⟩ => ⟨S16384x2048, .f32⟩
  | .hbm, ⟨8, _⟩ => ⟨S16384x2048, .f32⟩
  | .hbm, ⟨9, _⟩ => ⟨S4x4096x2048, .f32⟩
  | .local _ .vmem, ⟨0, _⟩ => ⟨S1024x2048, .f32⟩
  | .local _ .vmem, ⟨1, _⟩ => ⟨S1024x2048, .f32⟩
  | .local _ .vmem, ⟨2, _⟩ => ⟨S2048x6, .f32⟩
  | .local _ .vmem, ⟨3, _⟩ => ⟨S2048x4, .f32⟩
  | .local _ .vmem, ⟨4, _⟩ => ⟨S1024x2048, .f32⟩
  | .local _ .vmem, ⟨5, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S8x6_S8x256x6_0_2 : S8x6.BroadcastsInDim S8x256x6 (![0, 2] : Fin 2 → Fin S8x256x6.rank)
  shapeCasts_S8x256x6_S2048x6 : S8x256x6.ShapeCasts S2048x6
  bcast_S8x4_S8x256x4_0_2 : S8x4.BroadcastsInDim S8x256x4 (![0, 2] : Fin 2 → Fin S8x256x4.rank)
  shapeCasts_S8x256x4_S2048x4 : S8x256x4.ShapeCasts S2048x4
  shapeCasts_S4x4096x2048_S16384x2048 : S4x4096x2048.ShapeCasts S16384x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x6_S2048x6_0_0 : ∀ a, (![0, 0] : Fin 2 → Nat) a + S2048x6.size a ≤ S2048x6.size a
  h_S2048x6 : 0 < S2048x6.numel
  shapeCasts_S2048x6_S2048x6 : S2048x6.ShapeCasts S2048x6
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  slices_S2048x6_o0_5_S2048x1 : S2048x6.Slices ![0, 5] S2048x1
  shapeCasts_S2048x1_S2048 : S2048x1.ShapeCasts S2048
  shapeCasts_S2048_S1x2048 : S2048.ShapeCasts S1x2048
  shapeCasts_S1x2048_S1x2048 : S1x2048.ShapeCasts S1x2048
  broadcasts_S1x2048_S1024x2048 : S1x2048.Broadcasts S1024x2048
  slices_S2048x6_o0_4_S2048x1 : S2048x6.Slices ![0, 4] S2048x1
  slices_S2048x6_o0_3_S2048x1 : S2048x6.Slices ![0, 3] S2048x1
  slices_S2048x6_o0_2_S2048x1 : S2048x6.Slices ![0, 2] S2048x1
  slices_S2048x6_o0_1_S2048x1 : S2048x6.Slices ![0, 1] S2048x1
  slices_S2048x6_o0_0_S2048x1 : S2048x6.Slices ![0, 0] S2048x1
  slices_S2048x4_o0_3_S2048x1 : S2048x4.Slices ![0, 3] S2048x1
  slices_S2048x4_o0_2_S2048x1 : S2048x4.Slices ![0, 2] S2048x1
  slices_S2048x4_o0_1_S2048x1 : S2048x4.Slices ![0, 1] S2048x1
  slices_S2048x4_o0_0_S2048x1 : S2048x4.Slices ![0, 0] S2048x1
  shapeCasts_S16384x2048_S4x4096x2048 : S16384x2048.ShapeCasts S4x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x6.size a ≤ S2048x6.size a
  hwx0_1 : ∀ i : grid0.Coords, EltTy.bits .f32 = 32 ∨ (Rect.block (s := S2048x6) S2048x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S2048x4.size a
  hwx0_2 : ∀ i : grid0.Coords, EltTy.bits .f32 = 32 ∨ (Rect.block (s := S2048x4) S2048x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

abbrev win0_0 : Pipeline.Window sig grid0 :=
  Pipeline.Window.ofSpec (Memref.whole main_v4) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S8x6 : Shape := ⟨2, ![8, 6]⟩
abbrev S8x4 : Shape := ⟨2, ![8, 4]⟩
abbrev S4x4096x8x256 : Shape := ⟨4, ![4, 4096, 8, 256]⟩
abbrev S8x1 : Shape := ⟨2, ![8, 1]⟩
abbrev S8 : Shape := ⟨1, ![8]⟩
abbrev S8x256 : Shape := ⟨2, ![8, 256]⟩
abbrev S1x1x8x256 : Shape := ⟨4, ![1, 1, 8, 256]⟩
abbrev S1x1x8x1 : Shape := ⟨4, ![1, 1, 8, 1]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x6, .f32⟩
  | .hbm, ⟨2, _⟩ => ⟨S8x4, .f32⟩
  | .hbm, ⟨3, _⟩ => ⟨S4x4096x8x256, .f32⟩
  | .hbm, ⟨4, _⟩ => ⟨S8x1, .f32⟩
  | .hbm, ⟨5, _⟩ => ⟨S8, .f32⟩
  | .hbm, ⟨6, _⟩ => ⟨S8x1, .f32⟩
  | .hbm, ⟨7, _⟩ => ⟨S8x256, .f32⟩
  | .hbm, ⟨8, _⟩ => ⟨S1x1x8x256, .f32⟩
  | .hbm, ⟨9, _⟩ => ⟨S4x4096x8x256, .f32⟩
  | .hbm, ⟨10, _⟩ => ⟨S4x4096x8x256, .f32⟩
  | .hbm, ⟨11, _⟩ => ⟨S8x1, .f32⟩
  | .hbm, ⟨12, _⟩ => ⟨S8, .f32⟩
  | .hbm, ⟨13, _⟩ => ⟨S8x1, .f32⟩
  | .hbm, ⟨14, _⟩ => ⟨S1x1x8x1, .f32⟩
  | .hbm, ⟨15, _⟩ => ⟨S4x4096x8x256, .f32⟩
  | .hbm, ⟨16, _⟩ => ⟨S4x4096x8x256, .f32⟩
  | .hbm, ⟨17, _⟩ => ⟨S4x4096x8x256, .f32⟩
  | .hbm, ⟨18, _⟩ => ⟨S8x1, .f32⟩
  | .hbm, ⟨19, _⟩ => ⟨S8, .f32⟩
  | .hbm, ⟨20, _⟩ => ⟨S8x1, .f32⟩
  | .hbm, ⟨21, _⟩ => ⟨S1x1x8x1, .f32⟩
  | .hbm, ⟨22, _⟩ => ⟨S4x4096x8x256, .f32⟩
  | .hbm, ⟨23, _⟩ => ⟨S4x4096x8x256, .f32⟩
  | .hbm, ⟨24, _⟩ => ⟨S4x4096x8x256, .f32⟩
  | .hbm, ⟨25, _⟩ => ⟨S8x1, .f32⟩
  | .hbm, ⟨26, _⟩ => ⟨S8, .f32⟩
  | .hbm, ⟨27, _⟩ => ⟨S8x1, .f32⟩
  | .hbm, ⟨28, _⟩ => ⟨S1x1x8x1, .f32⟩
  | .hbm, ⟨29, _⟩ => ⟨S4x4096x8x256, .f32⟩
  | .hbm, ⟨30, _⟩ => ⟨S4x4096x8x256, .f32⟩
  | .hbm, ⟨31, _⟩ => ⟨S4x4096x8x256, .f32⟩
  | .hbm, ⟨32, _⟩ => ⟨S8x1, .f32⟩
  | .hbm, ⟨33, _⟩ => ⟨S8, .f32⟩
  | .hbm, ⟨34, _⟩ => ⟨S8x1, .f32⟩
  | .hbm, ⟨35, _⟩ => ⟨S1x1x8x1, .f32⟩
  | .hbm, ⟨36, _⟩ => ⟨S4x4096x8x256, .f32⟩
  | .hbm, ⟨37, _⟩ => ⟨S4x4096x8x256, .f32⟩
  | .hbm, ⟨38, _⟩ => ⟨S4x4096x8x256, .f32⟩
  | .hbm, ⟨39, _⟩ => ⟨S8x1, .f32⟩
  | .hbm, ⟨40, _⟩ => ⟨S8, .f32⟩
  | .hbm, ⟨41, _⟩ => ⟨S8x1, .f32⟩
  | .hbm, ⟨42, _⟩ => ⟨S1x1x8x1, .f32⟩
  | .hbm, ⟨43, _⟩ => ⟨S4x4096x8x256, .f32⟩
  | .hbm, ⟨44, _⟩ => ⟨S4x4096x8x256, .f32⟩
  | .hbm, ⟨45, _⟩ => ⟨S8x1, .f32⟩
  | .hbm, ⟨46, _⟩ => ⟨S8, .f32⟩
  | .hbm, ⟨47, _⟩ => ⟨S8x1, .f32⟩
  | .hbm, ⟨48, _⟩ => ⟨S8x256, .f32⟩
  | .hbm, ⟨49, _⟩ => ⟨S1x1x8x256, .f32⟩
  | .hbm, ⟨50, _⟩ => ⟨S4x4096x8x256, .f32⟩
  | .hbm, ⟨51, _⟩ => ⟨S4x4096x8x256, .f32⟩
  | .hbm, ⟨52, _⟩ => ⟨S8x1, .f32⟩
  | .hbm, ⟨53, _⟩ => ⟨S8, .f32⟩
  | .hbm, ⟨54, _⟩ => ⟨S8x1, .f32⟩
  | .hbm, ⟨55, _⟩ => ⟨S1x1x8x1, .f32⟩
  | .hbm, ⟨56, _⟩ => ⟨S4x4096x8x256, .f32⟩
  | .hbm, ⟨57, _⟩ => ⟨S4x4096x8x256, .f32⟩
  | .hbm, ⟨58, _⟩ => ⟨S4x4096x8x256, .f32⟩
  | .hbm, ⟨59, _⟩ => ⟨S8x1, .f32⟩
  | .hbm, ⟨60, _⟩ => ⟨S8, .f32⟩
  | .hbm, ⟨61, _⟩ => ⟨S8x1, .f32⟩
  | .hbm, ⟨62, _⟩ => ⟨S1x1x8x1, .f32⟩
  | .hbm, ⟨63, _⟩ => ⟨S4x4096x8x256, .f32⟩
  | .hbm, ⟨64, _⟩ => ⟨S4x4096x8x256, .f32⟩
  | .hbm, ⟨65, _⟩ => ⟨S4x4096x8x256, .f32⟩
  | .hbm, ⟨66, _⟩ => ⟨S8x1, .f32⟩
  | .hbm, ⟨67, _⟩ => ⟨S8, .f32⟩
  | .hbm, ⟨68, _⟩ => ⟨S8x1, .f32⟩
  | .hbm, ⟨69, _⟩ => ⟨S1x1x8x1, .f32⟩
  | .hbm, ⟨70, _⟩ => ⟨S4x4096x8x256, .f32⟩
  | .hbm, ⟨71, _⟩ => ⟨S4x4096x8x256, .f32⟩
  | .hbm, ⟨72, _⟩ => ⟨S4x4096x8x256, .f32⟩
  | .hbm, ⟨73, _⟩ => ⟨S4x4096x8x256, .f32⟩
  | .hbm, ⟨74, _⟩ => ⟨S_, .f32⟩
  | .hbm, ⟨75, _⟩ => ⟨S4x4096x8x256, .f32⟩
  | .hbm, ⟨76, _⟩ => ⟨S4x4096x8x256, .f32⟩
  | .hbm, ⟨77, _⟩ => ⟨S4x4096x8x256, .f32⟩
  | .hbm, ⟨78, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_cst : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩

abbrev nD : Nat := 1
abbrev τ : Topo := Topo.v7x

variable {F : FTy → Type} [FloatOps F]

class Facts₀ : Prop where
  shapeCasts_S4x4096x2048_S4x4096x8x256 : S4x4096x2048.ShapeCasts S4x4096x8x256
  slices_S8x6_S8x1_0_5 : S8x6.Slices ![0, 5] S8x1
  shapeCasts_S8x1_S8 : S8x1.ShapeCasts S8
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S8x256_S1x1x8x256_2_3 : S8x256.BroadcastsInDim S1x1x8x256 (![2, 3] : Fin 2 → Fin S1x1x8x256.rank)
  bcast_S1x1x8x256_S4x4096x8x256_0_1_2_3 : S1x1x8x256.BroadcastsInDim S4x4096x8x256 (![0, 1, 2, 3] : Fin 4 → Fin S4x4096x8x256.rank)
  slices_S8x6_S8x1_0_4 : S8x6.Slices ![0, 4] S8x1
  bcast_S8x1_S1x1x8x1_2_3 : S8x1.BroadcastsInDim S1x1x8x1 (![2, 3] : Fin 2 → Fin S1x1x8x1.rank)
  bcast_S1x1x8x1_S4x4096x8x256_0_1_2_3 : S1x1x8x1.BroadcastsInDim S4x4096x8x256 (![0, 1, 2, 3] : Fin 4 → Fin S4x4096x8x256.rank)
  slices_S8x6_S8x1_0_3 : S8x6.Slices ![0, 3] S8x1
  slices_S8x6_S8x1_0_2 : S8x6.Slices ![0, 2] S8x1
  slices_S8x6_S8x1_0_1 : S8x6.Slices ![0, 1] S8x1
  slices_S8x6_S8x1_0_0 : S8x6.Slices ![0, 0] S8x1
  slices_S8x4_S8x1_0_3 : S8x4.Slices ![0, 3] S8x1
  slices_S8x4_S8x1_0_2 : S8x4.Slices ![0, 2] S8x1
  slices_S8x4_S8x1_0_1 : S8x4.Slices ![0, 1] S8x1
  slices_S8x4_S8x1_0_0 : S8x4.Slices ![0, 0] S8x1
  bcast_S_S4x4096x8x256 : S_.BroadcastsInDim S4x4096x8x256 (![] : Fin 0 → Fin S4x4096x8x256.rank)
  shapeCasts_S4x4096x8x256_S4x4096x2048 : S4x4096x8x256.ShapeCasts S4x4096x2048

variable [Facts₀]

class Facts : Prop extends Facts₀ where

variable [Facts]
-- ==== Proof.LibColumns.lean ====
/-
  A column of a table laid along the lanes of a block.

  A coefficient table `T` of shape `[a, n]` holds, in row `q`, the `n` coefficients that belong to lane `q`. A body that wants
  coefficient `o` of every lane beside a block of `r` rows and `a` lanes cuts column `o` out of the table (an `[a, 1]` column),
  flattens it (`[a]`), lays it as one row (`[1, a]`) and repeats that row `r` times (`[r, a]`). Read at row `p` and lane `q` the
  result is `T (q, o)`, whatever the row: each step moves one coordinate and none of them touches a value.
-/
import Idealize.ShloMosaic.Lib.ValueIdx
import Idealize.ShloMosaic.Lib.ValueLayout
import Idealize.ShloMosaic.Lib.Pipeline.Value

namespace Cert.Lib.Columns

open Idealize.ShloMosaic Idealize.ShloMosaic.ValueIdx

variable {α : Type}

/-- An `[a, 1]` column cast to `[a]` reads, at `i`, the column at `(i, 0)`: both sit at row-major position `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `o` of an `[a, n]` table, cut out, flattened, laid as a row and repeated over `r` rows, reads at `(p, q)` the
    table's entry `(q, o)`. -/
theorem column_over_rows_apply {a n r : ℕ} (o : ℕ) (ho : o < n) (T : (⟨2, ![a, n]⟩ : Shape).Idx → α)
    (hs : (⟨2, ![a, n]⟩ : Shape).Slices ![0, o] ⟨2, ![a, 1]⟩)
    (h1 : (⟨2, ![a, 1]⟩ : Shape).ShapeCasts ⟨1, ![a]⟩)
    (h2 : (⟨1, ![a]⟩ : Shape).ShapeCasts ⟨2, ![1, a]⟩)
    (hb : (⟨2, ![1, a]⟩ : Shape).Broadcasts ⟨2, ![r, a]⟩) (p : Fin r) (q : Fin a) :
    broadcastTo ⟨2, ![r, a]⟩
        (shapeCast ⟨2, ![1, a]⟩ (shapeCast ⟨1, ![a]⟩ (extractStridedSlice ⟨2, ![a, 1]⟩ ![0, o] T hs) h1) h2) hb (ix2 p q)
      = T (ix2 q ⟨o, ho⟩) := by
  rw [broadcastTo_1b_ab_apply, shapeCast_a_1a_apply, shapeCast_a1_a_apply]
  exact slice2_axis1_apply o T hs q (0 : Fin 1) ⟨o, ho⟩ rfl

end Cert.Lib.Columns
-- ==== Proof.Activation.lean ====
/-
  The grouped rational activation, one element at a time, on the extended reals.

  The 2048 channels fall into 8 contiguous groups of 256; channel `ch` belongs to group `ch / 256`. With its group's numerator
  coefficients a₀ … a₅ and denominator coefficients b₀ … b₃, an element `x` is sent to
      P(x) / (1 + |x · q(x)|),   P(x) = ((((a₅ x + a₄) x + a₃) x + a₂) x + a₁) x + a₀,   q(x) = ((b₃ x + b₂) x + b₁) x + b₀,
  both polynomials evaluated by Horner's rule, in exactly this order of additions and products. No law of arithmetic is used
  anywhere below: the two programs perform the same operations in the same order on the same numbers, and differ only in
  where in memory a coefficient or an element is found. So nothing here asks the numbers to be finite.
-/
import Idealize.ShloMosaic.PureOps.Ideal
import Idealize.ShloMosaic.Lib.ValueIdx

noncomputable section

namespace Cert.GroupedRational

open Idealize.ShloMosaic Idealize.ShloMosaic.ValueIdx

/-- The numerator, degree 5, by Horner's rule from the leading coefficient down. -/
def numer (a : Fin 6 → EReal) (x : EReal) : EReal :=
  ((((a 5 * x + a 4) * x + a 3) * x + a 2) * x + a 1) * x + a 0

/-- The inner polynomial of the denominator, degree 3, by Horner's rule. -/
def inner (b : Fin 4 → EReal) (x : EReal) : EReal :=
  ((b 3 * x + b 2) * x + b 1) * x + b 0

/-- One element through the activation: `P(x) / (1 + |x · q(x)|)`; the absolute value of `y` is `max y (-y)`, the constant one
    is kept as the word both programs print, and the quotient is the extended reals' (`Ideal.div`). -/
def rat (a : Fin 6 → EReal) (b : Fin 4 → EReal) (x : EReal) : EReal :=
  Ideal.div (numer a x) (Ideal.ofBits .f32 0x3F800000#32 + max (x * inner b x) (-(x * inner b x)))

/-- The group of a channel: 256 consecutive channels to a group. -/
def grp (ch : Fin 2048) : Fin 8 := ⟨ch.val / 256, by have := ch.isLt; omega⟩

/-- THE RESULT as one function of the three arguments: element `(b, l, ch)` of the input through the activation with the
    coefficient rows of `ch`'s group. -/
def result (X : (⟨3, ![4, 4096, 2048]⟩ : Shape).Idx → EReal) (A : (⟨2, ![8, 6]⟩ : Shape).Idx → EReal)
    (B : (⟨2, ![8, 4]⟩ : Shape).Idx → EReal) (b : Fin 4) (l : Fin 4096) (ch : Fin 2048) : EReal :=
  rat (fun k => A (ix2 (grp ch) k)) (fun k => B (ix2 (grp ch) k)) (X (ix3 b l ch))

/-- The same on the flattened layout: rows `(b, l)` run together (16384 of them) and the coefficients already repeated per
    channel (row `ch` of a `[2048, ·]` table). Element `(r, ch)` through the activation with row `ch`'s coefficients. -/
def rows (X2 : (⟨2, ![16384, 2048]⟩ : Shape).Idx → EReal) (A2 : (⟨2, ![2048, 6]⟩ : Shape).Idx → EReal)
    (B2 : (⟨2, ![2048, 4]⟩ : Shape).Idx → EReal) (r : Fin 16384) (ch : Fin 2048) : EReal :=
  rat (fun k => A2 (ix2 ch k)) (fun k => B2 (ix2 ch k)) (X2 (ix2 r ch))

end Cert.GroupedRational

end
-- ==== Proof.Body.lean ====
/-
  What the kernel's body stores, one element at a time.

  At a grid point the body holds a block `x0` of 1024 rows and 2048 channels of the input and the two per-channel coefficient
  tables `x1` (2048 × 6) and `x2` (2048 × 4), row `q` of each being channel `q`'s coefficients. It cuts each coefficient column
  out of its table, lays it along the channels and repeats it over the rows, then runs the two Horner recurrences and the
  quotient elementwise. So the element it stores at row `p`, channel `q` is the activation of `x0 (p, q)` with the coefficients
  in row `q` of the two tables: every layout step only moves a coordinate, and the arithmetic is the specification's, operation
  for operation.
-/
import proofs.«156786_j25829933318783_1_alg».proof.Proof.Gen.KernelIdeal.Skeleton
import proofs.«156786_j25829933318783_1_alg».proof.Proof.LibColumns
import proofs.«156786_j25829933318783_1_alg».proof.Proof.Activation

noncomputable section

namespace Cert.KernelIdeal.Body

open Idealize.ShloMosaic Idealize.ShloMosaic.ValueIdx Cert.KernelIdeal Cert.KernelIdeal.Gen Cert.GroupedRational
open Cert.Lib.Columns

/-- The elementwise absolute value at an index, on the extended reals: the larger of the element and its negation. -/
theorem absf_apply {s : Shape} {φ : FTy} (a : FVec Ideal s φ) (i : s.Idx) : absf a i = max (a i) (-(a i)) := rfl

/-- THE STORED ELEMENT at row `p`, channel `q` of the block: `x0 (p, q)` through the activation with row `q` of the two
    coefficient tables. The ten coefficient columns are read by `column_over_rows_apply`; what is left is the same tree of sums,
    products, one absolute value and one quotient on both sides. -/
theorem stored_apply (x0 : Vec Ideal S1024x2048 .f32) (x1 : Vec Ideal S2048x6 .f32) (x2 : Vec Ideal S2048x4 .f32)
    (p : Fin 1024) (q : Fin 2048) :
    k0_pay1 (F := Ideal) (k0_pay2 x0) (k0_pay3 x2) (k0_pay4 x0 x1) (k0_pay5 x0 x2) (ix2 p q)
      = rat (fun k => x1 (ix2 q k)) (fun k => x2 (ix2 q k)) (x0 (ix2 p q)) := by
  have a5 := column_over_rows_apply (r := 1024) 5 (by decide) x1 slices_S2048x6_o0_5_S2048x1 shapeCasts_S2048x1_S2048 shapeCasts_S2048_S1x2048 broadcasts_S1x2048_S1024x2048 p q
  have a4 := column_over_rows_apply (r := 1024) 4 (by decide) x1 slices_S2048x6_o0_4_S2048x1 shapeCasts_S2048x1_S2048 shapeCasts_S2048_S1x2048 broadcasts_S1x2048_S1024x2048 p q
  have a3 := column_over_rows_apply (r := 1024) 3 (by decide) x1 slices_S2048x6_o0_3_S2048x1 shapeCasts_S2048x1_S2048 shapeCasts_S2048_S1x2048 broadcasts_S1x2048_S1024x2048 p q
  have a2 := column_over_rows_apply (r := 1024) 2 (by decide) x1 slices_S2048x6_o0_2_S2048x1 shapeCasts_S2048x1_S2048 shapeCasts_S2048_S1x2048 broadcasts_S1x2048_S1024x2048 p q
  have a1 := column_over_rows_apply (r := 1024) 1 (by decide) x1 slices_S2048x6_o0_1_S2048x1 shapeCasts_S2048x1_S2048 shapeCasts_S2048_S1x2048 broadcasts_S1x2048_S1024x2048 p q
  have a0 := column_over_rows_apply (r := 1024) 0 (by decide) x1 slices_S2048x6_o0_0_S2048x1 shapeCasts_S2048x1_S2048 shapeCasts_S2048_S1x2048 broadcasts_S1x2048_S1024x2048 p q
  have b3 := column_over_rows_apply (r := 1024) 3 (by decide) x2 slices_S2048x4_o0_3_S2048x1 shapeCasts_S2048x1_S2048 shapeCasts_S2048_S1x2048 broadcasts_S1x2048_S1024x2048 p q
  have b2 := column_over_rows_apply (r := 1024) 2 (by decide) x2 slices_S2048x4_o0_2_S2048x1 shapeCasts_S2048x1_S2048 shapeCasts_S2048_S1x2048 broadcasts_S1x2048_S1024x2048 p q
  have b1 := column_over_rows_apply (r := 1024) 1 (by decide) x2 slices_S2048x4_o0_1_S2048x1 shapeCasts_S2048x1_S2048 shapeCasts_S2048_S1x2048 broadcasts_S1x2048_S1024x2048 p q
  have b0 := column_over_rows_apply (r := 1024) 0 (by decide) x2 slices_S2048x4_o0_0_S2048x1 shapeCasts_S2048x1_S2048 shapeCasts_S2048_S1x2048 broadcasts_S1x2048_S1024x2048 p q
  simp only [k0_pay1, k0_pay2, k0_pay3, k0_pay4, k0_pay5, shapeCast_self]
  simp only [divf_apply, addf_apply, mulf_apply, absf_apply, broadcast_apply, a5, a4, a3, a2, a1, a0, b3, b2, b1, b0]
  rfl

end Cert.KernelIdeal.Body

end
-- ==== Proof.Blocks.lean ====
/-
  From the sixteen blocks to the whole flattened array.

  The region sees the input flattened to 16384 rows of 2048 channels and the coefficients already repeated per channel
  (tables of 2048 rows). Grid point `t` takes rows `1024·t … 1024·t + 1023` of the input, both tables whole, and writes the
  same rows of the result. A stored element depends only on the input element under it and on its channel's two coefficient
  rows, so each point writes a block of ONE function of the three arrays — `flat` below — and the sixteen blocks tile the
  array: after the region the array is `flat` of what the region found.
-/
import proofs.«156786_j25829933318783_1_alg».proof.Proof.Gen.KernelIdeal.Frame
import proofs.«156786_j25829933318783_1_alg».proof.Proof.Body
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.GroupedRational
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The channel of an index of the flattened array, and of an index of a block: the second coordinate. -/
def lane (i : S16384x2048.Idx) : Fin 2048 := ⟨(i 1).val, (i 1).isLt⟩
def blockLane (j : S1024x2048.Idx) : Fin 2048 := ⟨(j 1).val, (j 1).isLt⟩

/-- THE FLATTENED RESULT as one function of the flattened input and the two per-channel tables: element `i` of the input
    through the activation with the coefficient rows of `i`'s channel. -/
def flat (X2 : S16384x2048.Idx → Elt Ideal .f32) (A2 : S2048x6.Idx → Elt Ideal .f32) (B2 : S2048x4.Idx → Elt Ideal .f32) :
    S16384x2048.Idx → Elt Ideal .f32 :=
  fun i => rat (fun k => A2 (ix2 (lane i) k)) (fun k => B2 (ix2 (lane i) k)) (X2 i)

/-- The stored element at any index of the block (`Body.stored_apply` with the index not yet split into row and channel). -/
theorem stored_at (x0 : Vec Ideal S1024x2048 .f32) (x1 : Vec Ideal S2048x6 .f32) (x2 : Vec Ideal S2048x4 .f32)
    (j : S1024x2048.Idx) :
    k0_pay1 (F := Ideal) (k0_pay2 x0) (k0_pay3 x2) (k0_pay4 x0 x1) (k0_pay5 x0 x2) j
      = rat (fun k => x1 (ix2 (blockLane j) k)) (fun k => x2 (ix2 (blockLane j) k)) (x0 j) := by
  obtain ⟨p, q, rfl⟩ : ∃ (p : Fin 1024) (q : Fin 2048), j = ix2 p q := ⟨j 0, j 1, eq_ix2 j⟩
  exact Body.stored_apply x0 x1 x2 p q

/-- Each window's block at a point is its array read under the block's rectangle. -/
theorem read0 (c : Dev nD) (t : Fin cfg0.N) (y : S1024x2048.Idx) :
    iblk m c 0 t y = V m c main_v4 (((cfg0.win 0).blk t).view.emb y) := rfl
theorem read1 (c : Dev nD) (t : Fin cfg0.N) (y : S2048x6.Idx) :
    iblk m c 1 t y = V m c main_v1 (((cfg0.win 1).blk t).view.emb y) := rfl
theorem read2 (c : Dev nD) (t : Fin cfg0.N) (y : S2048x4.Idx) :
    iblk m c 2 t y = V m c main_v3 (((cfg0.win 2).blk t).view.emb y) := rfl

/-- Where the blocks lie, decided over the sixteen points: the input's block moves with the result's (block row `t`, the
    one block column), and both coefficient tables are always taken whole. -/
theorem block_positions : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block row of the result is some point's. -/
theorem block_row_onto : ∀ q0 : Fin 16, ∃ t : Fin cfg0.N, win0_3.index t = ![q0.val, 0] :=
  (by decide +kernel : ∀ q0 : Fin 16, ∃ t : Fin grid0.N, win0_3.index t = ![q0.val, 0])

/-- WHAT POINT `t` WRITES BACK is block `t` of `flat` of the arrays as the region finds them: the stored element at a block
    index is the activation of the input block's element with its channel's rows of the two tables (`stored_at`); the input
    block's element is the input array's under the result's own rectangle, and the tables' rows are the arrays' rows. -/
theorem flushed_eq (c : Dev nD) (t : Fin cfg0.N) :
    (dats m 0 c).flushed 3 t
      = ((cfg0.win 3).blk t).view.read (Elt Ideal) (flat (V m c main_v4) (V m c main_v1) (V m c main_v3)) := by
  show (cfg0.win 3).cut (grid0.coords t) ((dats m 0 c).after 3 t) = _
  rw [after0_3]
  unfold out0_3
  rw [View.canon_unit_zero offsets_zero]
  simp only [View.ld_unit_zero (S := S1024x2048) offsets_zero, View.ld_unit_zero (S := S2048x6) offsets_zero,
    View.ld_unit_zero (S := S2048x4) offsets_zero]
  obtain ⟨e00, e01, e31, e10, e11, e20, e21⟩ := block_positions t
  funext j
  refine (stored_at (iblk m c 0 t) (iblk m c 1 t) (iblk m c 2 t) j).trans ?_
  simp only [read0, read1, read2]
  show _ = rat (fun k => V m c main_v1 (ix2 (lane (((cfg0.win 3).blk t).view.emb j)) k))
      (fun k => V m c main_v3 (ix2 (lane (((cfg0.win 3).blk t).view.emb j)) k))
      (V m c main_v4 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 2048 + 1 * (j 1).val = win0_3.index t (1 : Fin 2) * 2048 + 1 * (j 1).val; omega
  have h1 : ∀ k : Fin 6, ((cfg0.win 1).blk t).view.emb (ix2 (blockLane j) k) = ix2 (lane (((cfg0.win 3).blk t).view.emb j)) k := by
    intro k; funext a; apply Fin.ext
    match a with
    | ⟨0, _⟩ => show win0_1.index t (0 : Fin 2) * 2048 + 1 * (j 1).val = win0_3.index t (1 : Fin 2) * 2048 + 1 * (j 1).val; omega
    | ⟨1, _⟩ => show win0_1.index t (1 : Fin 2) * 6 + 1 * k.val = k.val; omega
  have h2 : ∀ k : Fin 4, ((cfg0.win 2).blk t).view.emb (ix2 (blockLane j) k) = ix2 (lane (((cfg0.win 3).blk t).view.emb j)) k := by
    intro k; funext a; apply Fin.ext
    match a with
    | ⟨0, _⟩ => show win0_2.index t (0 : Fin 2) * 2048 + 1 * (j 1).val = win0_3.index t (1 : Fin 2) * 2048 + 1 * (j 1).val; omega
    | ⟨1, _⟩ => show win0_2.index t (1 : Fin 2) * 4 + 1 * k.val = k.val; omega
  simp only [h0, h1, h2]

/-- An index of the flattened array is in point `t`'s block iff each coordinate is in the block's range on its axis. -/
theorem mem_block (t : Fin cfg0.N) (i : S16384x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v5).slice (win0_3.rect t)).set ↔ _
  rw [View.set_slice_whole, Rect.mem_set_unit]
  exact Iff.rfl

/-- The blocks tile the array: row `r` lies in the block of point `r / 1024`. -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := block_row_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- THE FLATTENED ARRAY after the region is `flat` of the arrays the region found. -/
theorem final (c : Dev nD) :
    (dats m 0 c).arrAt 3 cfg0.N = flat (V m c main_v4) (V m c main_v1) (V m c main_v3) :=
  (dats m 0 c).arrAt_eq_of_cover 3 (flat (V m c main_v4) (V m c main_v1) (V m c main_v3))
    (fun t _ => flushed_eq m c t) covered

end Cert.KernelIdeal.Blocks

end
-- ==== Proof.KernelValue.lean ====
/-
  The kernel program's result as one function of its three arguments, and its run.

  Before the region the program repeats each group's coefficient row over the group's 256 channels (an `[8, n]` table broadcast
  to `[8, 256, n]` and flattened to `[2048, n]`) and flattens the input's first two axes (`[4, 4096, 2048]` to `[16384, 2048]`);
  after the region it splits the rows of the result again. Row `ch` of a repeated table is row `ch / 256` of the original —
  row-major position `ch · n + k = ((ch / 256) · 256 + ch % 256) · n + k` — and row `b · 4096 + l` of the flattened input is
  row `(b, l)` of the input. So element `(b, l, ch)` of the result is the activation of `X (b, l, ch)` with the coefficient rows
  of `ch`'s group: the specification.
-/
import proofs.«156786_j25829933318783_1_alg».proof.Proof.Blocks
import Idealize.ShloMosaic.PureOps.Ideal
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.GroupedRational Cert.KernelIdeal.Blocks
open Idealize.ShloMosaic.Pipeline (Dat)

variable (m : (ℓ : Loc nD τ sig) → Buf (Elt Ideal) ℓ) (ρ : Dev nD → PrngReg)

/-! ## The arrays the region finds, and what the program returns -/

/-- The region finds the input with its first two axes run together. -/
theorem found_input (c : Dev nD) :
    (V m c main_v4 : S16384x2048.Idx → Elt Ideal .f32)
      = shapeCast S16384x2048 (m ((c : Thread nD τ).loc main_arg0)) shapeCasts_S4x4096x2048_S16384x2048 := by
  show StableHlo.after hostOps0 (fun b => m (c, b)) (Proc.devRef .tc main_v4) = _
  after_results
  rfl

/-- It finds the numerator's coefficients repeated over each group's channels and flattened to one row per channel. -/
theorem found_numer (c : Dev nD) :
    (V m c main_v1 : S2048x6.Idx → Elt Ideal .f32)
      = shapeCast S2048x6 (broadcastInDim S8x256x6 ![0, 2] bcast_S8x6_S8x256x6_0_2 (m ((c : Thread nD τ).loc main_arg1)))
          shapeCasts_S8x256x6_S2048x6 := by
  show StableHlo.after hostOps0 (fun b => m (c, b)) (Proc.devRef .tc main_v1) = _
  after_results
  rfl

/-- And the denominator's likewise. -/
theorem found_inner (c : Dev nD) :
    (V m c main_v3 : S2048x4.Idx → Elt Ideal .f32)
      = shapeCast S2048x4 (broadcastInDim S8x256x4 ![0, 2] bcast_S8x4_S8x256x4_0_2 (m ((c : Thread nD τ).loc main_arg2)))
          shapeCasts_S8x256x4_S2048x4 := by
  show StableHlo.after hostOps0 (fun b => m (c, b)) (Proc.devRef .tc main_v3) = _
  after_results
  rfl

/-- What the program returns is the region's array with its rows split again. -/
theorem returned (c : Dev nD) :
    Pipeline.afterTail₀ cfgs (dats m) 0 (V0 m) [hostOps1] c main_v6
      = shapeCast S4x4096x2048 ((dats m 0 c).arrAt 3 cfg0.N) shapeCasts_S16384x2048_S4x4096x2048 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = (dats m 0 c).arrAt 3 cfg0.N :=
    Pipeline.withArrays_arr spec0 launch0.win.arr_inj c (V0 m c) (fun w => (dats m 0 c).arrAt w cfg0.N) 3
  rw [hw]
  rfl

/-- THE RESULT of the kernel program as one function of the argument arrays. -/
def value (X : S4x4096x2048.Idx → Elt Ideal .f32) (A : S8x6.Idx → Elt Ideal .f32) (B : S8x4.Idx → Elt Ideal .f32) :
    S4x4096x2048.Idx → Elt Ideal .f32 :=
  shapeCast S4x4096x2048
    (flat (shapeCast S16384x2048 X shapeCasts_S4x4096x2048_S16384x2048)
      (shapeCast S2048x6 (broadcastInDim S8x256x6 ![0, 2] bcast_S8x6_S8x256x6_0_2 A) shapeCasts_S8x256x6_S2048x6)
      (shapeCast S2048x4 (broadcastInDim S8x256x4 ![0, 2] bcast_S8x4_S8x256x4_0_2 B) shapeCasts_S8x256x4_S2048x4))
    shapeCasts_S16384x2048_S4x4096x2048

theorem returned_eq (c : Dev nD) :
    Pipeline.afterTail₀ cfgs (dats m) 0 (V0 m) [hostOps1] c main_v6
      = value (m ((c : Thread nD τ).loc main_arg0)) (m ((c : Thread nD τ).loc main_arg1)) (m ((c : Thread nD τ).loc main_arg2)) := by
  rw [returned, Blocks.final, found_input, found_numer, found_inner]
  rfl

/-- THE RUN: every weakly fair execution terminates with the result at `value` of the arguments and the arguments unchanged. -/
theorem run : θ_run defs (onTc (τ := τ) (main (F := Ideal))) ⟨m, fun _ => 0, ρ⟩ fun r => ∀ c : Dev nD,
      r.2.mem ((c.tc : Thread nD τ).loc main_v6)
        = value (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (returned_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-! ## The result, one element at a time -/

/-- Row `(b, l)` of the input in the flattened array. -/
def row (b : Fin 4) (l : Fin 4096) : Fin 16384 := ⟨b.val * 4096 + l.val, by have := b.isLt; have := l.isLt; omega⟩

/-- A channel within its group. -/
def within (ch : Fin 2048) : Fin 256 := ⟨ch.val % 256, Nat.mod_lt _ (by decide)⟩

theorem lane_ix2 (r : Fin 16384) (ch : Fin 2048) : lane (ix2 r ch) = ch := rfl

/-- Splitting the rows again: element `(b, l, ch)` is the flattened array's at row `b · 4096 + l`. -/
theorem split_rows_apply {α : Type} (Y : S16384x2048.Idx → α) (b : Fin 4) (l : Fin 4096) (ch : Fin 2048) :
    shapeCast S4x4096x2048 Y shapeCasts_S16384x2048_S4x4096x2048 (ix3 b l ch) = Y (ix2 (row b l) ch) :=
  shapeCast_apply Y shapeCasts_S16384x2048_S4x4096x2048 _ _ (by
    rw [Shape.rowMajor_val_two, Shape.rowMajor_val_three]
    show (b.val * 4096 + l.val) * 2048 + ch.val = (b.val * 4096 + l.val) * 2048 + ch.val
    rfl)

/-- Running the rows together: row `b · 4096 + l` of the flattened input is row `(b, l)` of the input. -/
theorem joined_rows_apply {α : Type} (X : S4x4096x2048.Idx → α) (b : Fin 4) (l : Fin 4096) (ch : Fin 2048) :
    shapeCast S16384x2048 X shapeCasts_S4x4096x2048_S16384x2048 (ix2 (row b l) ch) = X (ix3 b l ch) :=
  shapeCast_apply X shapeCasts_S4x4096x2048_S16384x2048 _ _ (by
    rw [Shape.rowMajor_val_two, Shape.rowMajor_val_three]
    show (b.val * 4096 + l.val) * 2048 + ch.val = (b.val * 4096 + l.val) * 2048 + ch.val
    rfl)

/-- Row `ch` of the repeated numerator table is row `ch / 256` of the table. -/
theorem repeated_numer_apply {α : Type} (A : S8x6.Idx → α) (ch : Fin 2048) (k : Fin 6) :
    shapeCast S2048x6 (broadcastInDim S8x256x6 ![0, 2] bcast_S8x6_S8x256x6_0_2 A) shapeCasts_S8x256x6_S2048x6 (ix2 ch k)
      = A (ix2 (grp ch) k) := by
  refine (shapeCast_apply _ shapeCasts_S8x256x6_S2048x6 (ix2 ch k) (ix3 (grp ch) (within ch) k) (by
    rw [Shape.rowMajor_val_two, Shape.rowMajor_val_three]
    show (ch.val / 256 * 256 + ch.val % 256) * 6 + k.val = ch.val * 6 + k.val
    have := Nat.div_add_mod' ch.val 256
    omega)).trans ?_
  exact broadcastInDim_apply _ bcast_S8x6_S8x256x6_0_2 A _ (ix2 (grp ch) k) (fun a => match a with
    | ⟨0, _⟩ => by show ch.val / 256 = if (8 : Nat) = 1 then 0 else ch.val / 256; rw [if_neg (by decide)]
    | ⟨1, _⟩ => by show k.val = if (6 : Nat) = 1 then 0 else k.val; rw [if_neg (by decide)])

/-- Row `ch` of the repeated denominator table is row `ch / 256` of the table. -/
theorem repeated_inner_apply {α : Type} (B : S8x4.Idx → α) (ch : Fin 2048) (k : Fin 4) :
    shapeCast S2048x4 (broadcastInDim S8x256x4 ![0, 2] bcast_S8x4_S8x256x4_0_2 B) shapeCasts_S8x256x4_S2048x4 (ix2 ch k)
      = B (ix2 (grp ch) k) := by
  refine (shapeCast_apply _ shapeCasts_S8x256x4_S2048x4 (ix2 ch k) (ix3 (grp ch) (within ch) k) (by
    rw [Shape.rowMajor_val_two, Shape.rowMajor_val_three]
    show (ch.val / 256 * 256 + ch.val % 256) * 4 + k.val = ch.val * 4 + k.val
    have := Nat.div_add_mod' ch.val 256
    omega)).trans ?_
  exact broadcastInDim_apply _ bcast_S8x4_S8x256x4_0_2 B _ (ix2 (grp ch) k) (fun a => match a with
    | ⟨0, _⟩ => by show ch.val / 256 = if (8 : Nat) = 1 then 0 else ch.val / 256; rw [if_neg (by decide)]
    | ⟨1, _⟩ => by show k.val = if (4 : Nat) = 1 then 0 else k.val; rw [if_neg (by decide)])

/-- THE KERNEL PROGRAM'S ELEMENT `(b, l, ch)` is the specification's. -/
theorem value_apply (X : S4x4096x2048.Idx → Elt Ideal .f32) (A : S8x6.Idx → Elt Ideal .f32) (B : S8x4.Idx → Elt Ideal .f32)
    (b : Fin 4) (l : Fin 4096) (ch : Fin 2048) :
    value X A B (ix3 b l ch) = result X A B b l ch := by
  unfold value
  rw [split_rows_apply]
  unfold flat
  have hA : ∀ k : Fin 6, shapeCast S2048x6 (broadcastInDim S8x256x6 ![0, 2] bcast_S8x6_S8x256x6_0_2 A)
      shapeCasts_S8x256x6_S2048x6 (ix2 ch k) = A (ix2 (grp ch) k) := repeated_numer_apply A ch
  have hB : ∀ k : Fin 4, shapeCast S2048x4 (broadcastInDim S8x256x4 ![0, 2] bcast_S8x4_S8x256x4_0_2 B)
      shapeCasts_S8x256x4_S2048x4 (ix2 ch k) = B (ix2 (grp ch) k) := repeated_inner_apply B ch
  simp only [lane_ix2, joined_rows_apply, hA, hB]
  rfl

end Cert.KernelIdeal.KernelValue

end
-- ==== Proof.ReferenceValue.lean ====
/-
  The reference, one element at a time.

  The reference views the input as `[4, 4096, 8, 256]` (the 2048 channels split into 8 groups of 256), repeats each
  coefficient column over the group's 256 channels and over all rows, runs the two Horner recurrences and the quotient
  elementwise, and views the result as `[4, 4096, 2048]` again. Element `(b, l, ch)` of the result sits at row-major position
  `n = (b · 4096 + l) · 2048 + ch`; in the four-axis view that is `(b, l, ch / 256, ch % 256)`, whose input element is again
  position `n` of the input, and whose coefficients are row `ch / 256` of the two tables. So the reference's element is the
  activation of `X (b, l, ch)` with the coefficient rows of `ch`'s group: the specification, operation for operation.
-/
import proofs.«156786_j25829933318783_1_alg».proof.Proof.Gen.ReferenceIdeal.Read
import proofs.«156786_j25829933318783_1_alg».proof.Proof.Activation

noncomputable section

namespace Cert.ReferenceIdeal.RefValue

open Idealize.ShloMosaic Idealize.ShloMosaic.ValueIdx Cert.ReferenceIdeal Cert.ReferenceIdeal.Read Cert.GroupedRational

/-! ## Where each operand is read

Each lemma follows one operand of the elementwise arithmetic back through the layout operations to the argument it comes
from: a chain of index maps applied to the four-axis index of `(b, l, ch)`. Coordinate by coordinate the chain is plain
arithmetic on `n`: the group coordinate is `n / 256 % 8 = ch / 256`, a coefficient's column is its constant offset. -/

/-- The input element under `(b, l, ch)`: split into groups and joined again, the position is unchanged. -/
theorem input_index (b : Fin 4) (l : Fin 4096) (ch : Fin 2048) :
    idx_main_v0 (idx_main_v74 (ix3 b l ch)) = ix3 b l ch := by
  funext a; apply Fin.ext
  have hb := b.isLt; have hl := l.isLt; have hc := ch.isLt
  match a with
  | ⟨0, _⟩ => show ((((((b.val * 4096 + l.val) * 2048 + ch.val) / 8388608) * 4096 + (((b.val * 4096 + l.val) * 2048 + ch.val) / 2048 % 4096)) * 8 + (((b.val * 4096 + l.val) * 2048 + ch.val) / 256 % 8)) * 256 + (((b.val * 4096 + l.val) * 2048 + ch.val) % 256)) / 8388608 = b.val; omega
  | ⟨1, _⟩ => show ((((((b.val * 4096 + l.val) * 2048 + ch.val) / 8388608) * 4096 + (((b.val * 4096 + l.val) * 2048 + ch.val) / 2048 % 4096)) * 8 + (((b.val * 4096 + l.val) * 2048 + ch.val) / 256 % 8)) * 256 + (((b.val * 4096 + l.val) * 2048 + ch.val) % 256)) / 2048 % 4096 = l.val; omega
  | ⟨2, _⟩ => show ((((((b.val * 4096 + l.val) * 2048 + ch.val) / 8388608) * 4096 + (((b.val * 4096 + l.val) * 2048 + ch.val) / 2048 % 4096)) * 8 + (((b.val * 4096 + l.val) * 2048 + ch.val) / 256 % 8)) * 256 + (((b.val * 4096 + l.val) * 2048 + ch.val) % 256)) % 2048 = ch.val; omega

theorem numer_index_0 (b : Fin 4) (l : Fin 4096) (ch : Fin 2048) :
    idx_main_v36 (idx_main_v37 (idx_main_v38 (idx_main_v39 (idx_main_v40 (idx_main_v74 (ix3 b l ch)))))) = ix2 (grp ch) (0 : Fin 6) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem numer_index_1 (b : Fin 4) (l : Fin 4096) (ch : Fin 2048) :
    idx_main_v29 (idx_main_v30 (idx_main_v31 (idx_main_v32 (idx_main_v33 (idx_main_v74 (ix3 b l ch)))))) = ix2 (grp ch) (1 : Fin 6) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem numer_index_2 (b : Fin 4) (l : Fin 4096) (ch : Fin 2048) :
    idx_main_v22 (idx_main_v23 (idx_main_v24 (idx_main_v25 (idx_main_v26 (idx_main_v74 (ix3 b l ch)))))) = ix2 (grp ch) (2 : Fin 6) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem numer_index_3 (b : Fin 4) (l : Fin 4096) (ch : Fin 2048) :
    idx_main_v15 (idx_main_v16 (idx_main_v17 (idx_main_v18 (idx_main_v19 (idx_main_v74 (ix3 b l ch)))))) = ix2 (grp ch) (3 : Fin 6) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem numer_index_4 (b : Fin 4) (l : Fin 4096) (ch : Fin 2048) :
    idx_main_v8 (idx_main_v9 (idx_main_v10 (idx_main_v11 (idx_main_v12 (idx_main_v74 (ix3 b l ch)))))) = ix2 (grp ch) (4 : Fin 6) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem numer_index_5 (b : Fin 4) (l : Fin 4096) (ch : Fin 2048) :
    idx_main_v1 (idx_main_v2 (idx_main_v3 (idx_main_v4 (idx_main_v5 (idx_main_v6 (idx_main_v74 (ix3 b l ch))))))) = ix2 (grp ch) (5 : Fin 6) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem inner_index_0 (b : Fin 4) (l : Fin 4096) (ch : Fin 2048) :
    idx_main_v63 (idx_main_v64 (idx_main_v65 (idx_main_v66 (idx_main_v67 (idx_main_v74 (ix3 b l ch)))))) = ix2 (grp ch) (0 : Fin 4) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem inner_index_1 (b : Fin 4) (l : Fin 4096) (ch : Fin 2048) :
    idx_main_v56 (idx_main_v57 (idx_main_v58 (idx_main_v59 (idx_main_v60 (idx_main_v74 (ix3 b l ch)))))) = ix2 (grp ch) (1 : Fin 4) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem inner_index_2 (b : Fin 4) (l : Fin 4096) (ch : Fin 2048) :
    idx_main_v49 (idx_main_v50 (idx_main_v51 (idx_main_v52 (idx_main_v53 (idx_main_v74 (ix3 b l ch)))))) = ix2 (grp ch) (2 : Fin 4) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

theorem inner_index_3 (b : Fin 4) (l : Fin 4096) (ch : Fin 2048) :
    idx_main_v42 (idx_main_v43 (idx_main_v44 (idx_main_v45 (idx_main_v46 (idx_main_v47 (idx_main_v74 (ix3 b l ch))))))) = ix2 (grp ch) (3 : Fin 4) := by
  funext a; apply Fin.ext
  have hb := b.isLt; have hl := l.isLt; have hc := ch.isLt
  match a with
  | ⟨0, _⟩ => show (((b.val * 4096 + l.val) * 2048 + ch.val) / 256 % 8) / 1 = ch.val / 256; omega
  | ⟨1, _⟩ => rfl

/-! ## The element -/

/-- THE REFERENCE'S ELEMENT `(b, l, ch)` is the specification's: read every operation at the index (the generated
    one-operation lemmas, outermost first), follow each operand to its argument (the index lemmas above), and the two sides
    are the same tree of sums, products, one absolute value and one quotient. -/
theorem ref_apply (X : (⟨S4x4096x2048, .f32⟩ : BufTy).Contents (Elt Ideal)) (A : (⟨S8x6, .f32⟩ : BufTy).Contents (Elt Ideal))
    (B : (⟨S8x4, .f32⟩ : BufTy).Contents (Elt Ideal)) (b : Fin 4) (l : Fin 4096) (ch : Fin 2048) :
    val_main_v74 (F := Ideal) X A B (ix3 b l ch) = result X A B b l ch := by
  simp only [val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply]
  rw [input_index, numer_index_0, numer_index_1, numer_index_2, numer_index_3, numer_index_4, numer_index_5, inner_index_0, inner_index_1, inner_index_2, inner_index_3]
  rfl

end Cert.ReferenceIdeal.RefValue

end
-- ==== Proof.lean ====
/-
  The grouped rational activation: a tiled kernel against its plain reference, equal on the extended reals.

  Both programs send element `x = X (b, l, ch)` to `P(x) / (1 + |x · q(x)|)`, with `P` of degree 5 and `q` of degree 3 evaluated by
  Horner's rule from the coefficient rows of `ch`'s group (`ch / 256`), in the same order of operations (Proof/Activation.lean).
  They differ only in layout. The kernel program repeats the coefficient rows per channel, runs the rows of the input
  together and works through them in sixteen tiles of 1024 rows (Proof/Body.lean: one stored element; Proof/Blocks.lean: the
  tiles make up the whole flattened array; Proof/KernelValue.lean: the flattening undone, and the program's run). The
  reference splits the channels into their groups, repeats each coefficient over a group, and joins the channels again
  (Proof/ReferenceValue.lean). Index by index both are the specification, so the results are equal — with no law of
  arithmetic used, hence for every extended-real input, finite or not.

  Each program terminates with its arguments unchanged: the kernel programs by their generated frames, the reference by its
  generated run. The idealized kernel is the kernel's own text read on the extended reals: nothing was rewritten.
-/
import proofs.«156786_j25829933318783_1_alg».proof.Defs
import proofs.«156786_j25829933318783_1_alg».proof.Proof.Gen.Kernel
import proofs.«156786_j25829933318783_1_alg».proof.Proof.Gen.Kernel.Skeleton
import proofs.«156786_j25829933318783_1_alg».proof.Proof.Gen.Kernel.Launch
import proofs.«156786_j25829933318783_1_alg».proof.Proof.Gen.Kernel.Points
import proofs.«156786_j25829933318783_1_alg».proof.Proof.Gen.Kernel.Frame
import proofs.«156786_j25829933318783_1_alg».proof.Proof.Gen.KernelIdeal
import proofs.«156786_j25829933318783_1_alg».proof.Proof.Gen.KernelIdeal.Skeleton
import proofs.«156786_j25829933318783_1_alg».proof.Proof.Gen.KernelIdeal.Launch
import proofs.«156786_j25829933318783_1_alg».proof.Proof.Gen.KernelIdeal.Points
import proofs.«156786_j25829933318783_1_alg».proof.Proof.Gen.KernelIdeal.Frame
import proofs.«156786_j25829933318783_1_alg».proof.Proof.Gen.ReferenceIdeal
import proofs.«156786_j25829933318783_1_alg».proof.Proof.Gen.Pre_finite_inputs
import proofs.«156786_j25829933318783_1_alg».proof.Proof.Gen.ReferenceIdeal.Run
import proofs.«156786_j25829933318783_1_alg».proof.Proof.Gen.ReferenceIdeal.Read
import proofs.«156786_j25829933318783_1_alg».proof.Proof.KernelValue
import proofs.«156786_j25829933318783_1_alg».proof.Proof.ReferenceValue
import Idealize.ShloMosaic.Adequacy
import Idealize.ShloMosaic.Init

noncomputable section

namespace Cert.Proof

open Idealize.ShloMosaic Idealize.SL.Sem Idealize.ShloMosaic.ValueIdx

/-- The kernel program terminates, faults nowhere and leaves its arguments as they were. -/
theorem frame_kernel : Cert.frame_Kernel := fun m ρ _ => Cert.Kernel.Gen.frame m ρ

/-- So does the same program read on the extended reals. -/
theorem frame_kernel_ideal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the three arguments both programs end with the same result: the kernel program's is
    `KernelValue.value` of the arguments (its run), the reference's is its composed term (its run), and at every index
    `(b, l, ch)` both are the specification's element (`KernelValue.value_apply`, `RefValue.ref_apply`). -/
theorem algebraic : Cert.algebraic_KernelIdeal_ReferenceIdeal := by
  intro m ρ m' ρ' _ hagree
  refine ⟨fun c => Cert.KernelIdeal.KernelValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2]
  funext i
  obtain ⟨b, l, ch, rfl⟩ : ∃ (b : Fin 4) (l : Fin 4096) (ch : Fin 2048), i = ix3 b l ch := ⟨i 0, i 1, i 2, eq_ix3 i⟩
  rw [Cert.ReferenceIdeal.RefValue.ref_apply]
  exact (Cert.KernelIdeal.KernelValue.value_apply _ _ _ b l ch).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
